-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S704512 : Shape := ⟨1, ![704512]⟩
abbrev S4096x11008 : Shape := ⟨2, ![4096, 11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S704512 : S_.BroadcastsInDim S704512 (![] : Fin 0 → Fin S704512.rank)
  reducesTo_S704512_S_d0 : S704512.ReducesTo [0] S_

variable [Facts]

def fn_part1 {F : FTy → Type} [FloatOps F] (main_v13 : IVec S_ 1) (main_v16 : IVec S704512 1) : IVec S_ 1 :=
  let main_c_5 : IVec S_ 1 := constantI S_ 1 1#1
  let main_v17 : IVec S_ 1 := (fun x v => Host.reduce IntOp.andi x v reducesTo_S704512_S_d0 h_S_) main_v16 main_c_5
  let main_v18 : IVec S_ 1 := andi main_v13 main_v17
  main_v18

def fn {F : FTy → Type} [FloatOps F] (main_arg0 : FVec F S8192x4096 .f32) (main_arg1 : IVec S11008x4096 32) (main_arg2 : FVec F S704512 .f32) (main_arg3 : IVec S11008x4096 32) (main_arg4 : FVec F S704512 .f32) (main_arg5 : IVec S4096x11008 32) (main_arg6 : FVec F S704512 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S704512 .f32 := Host.absf main_arg2
  let main_cst_0 : FVec F S_ .f32 := constant S_ .f32 0x7F800000#32
  let main_v5 : FVec F S704512 .f32 := broadcastInDim S704512 ![] bcast_S_S704512 main_cst_0
  let main_v6 : IVec S704512 1 := cmpf .olt main_v4 main_v5
  let main_c_1 : IVec S_ 1 := constantI S_ 1 1#1
  let main_v7 : IVec S_ 1 := (fun x v => Host.reduce IntOp.andi x v reducesTo_S704512_S_d0 h_S_) main_v6 main_c_1
  let main_v8 : IVec S_ 1 := andi main_v3 main_v7
  let main_v9 : FVec F S704512 .f32 := Host.absf main_arg4
  let main_cst_2 : FVec F S_ .f32 := constant S_ .f32 0x7F800000#32
  let main_v10 : FVec F S704512 .f32 := broadcastInDim S704512 ![] bcast_S_S704512 main_cst_2
  let main_v11 : IVec S704512 1 := cmpf .olt main_v9 main_v10
  let main_c_3 : IVec S_ 1 := constantI S_ 1 1#1
  let main_v12 : IVec S_ 1 := (fun x v => Host.reduce IntOp.andi x v reducesTo_S704512_S_d0 h_S_) main_v11 main_c_3
  let main_v13 : IVec S_ 1 := andi main_v8 main_v12
  let main_v14 : FVec F S704512 .f32 := Host.absf main_arg6
  let main_cst_4 : FVec F S_ .f32 := constant S_ .f32 0x7F800000#32
  let main_v15 : FVec F S704512 .f32 := broadcastInDim S704512 ![] bcast_S_S704512 main_cst_4
  let main_v16 : IVec S704512 1 := cmpf .olt main_v14 main_v15
  fn_part1 (F := F) main_v13 main_v16
-- ==== Kernel.lean ====
abbrev S8192x4096 : Shape := ⟨2, ![8192, 4096]⟩
abbrev S11008x4096 : Shape := ⟨2, ![11008, 4096]⟩
abbrev S704512 : Shape := ⟨1, ![704512]⟩
abbrev S4096x11008 : Shape := ⟨2, ![4096, 11008]⟩
abbrev S16 : Shape := ⟨1, ![16]⟩
abbrev S704512x64 : Shape := ⟨2, ![704512, 64]⟩
abbrev S_ : Shape := ⟨0, ![]⟩
abbrev S704512x64x1 : Shape := ⟨3, ![704512, 64, 1]⟩
abbrev S704512x1 : Shape := ⟨2, ![704512, 1]⟩
abbrev S8192x11008 : Shape := ⟨2, ![8192, 11008]⟩
abbrev S1024x4096 : Shape := ⟨2, ![1024, 4096]⟩
abbrev S256x4096 : Shape := ⟨2, ![256, 4096]⟩
abbrev S1024x256 : Shape := ⟨2, ![1024, 256]⟩
abbrev S4096x256 : Shape := ⟨2, ![4096, 256]⟩
abbrev S1024x11008 : Shape := ⟨2, ![1024, 11008]⟩
abbrev S256x11008 : Shape := ⟨2, ![256, 11008]⟩
abbrev S11008x256 : Shape := ⟨2, ![11008, 256]⟩

abbrev nBuf : Space → Nat
  | .hbm => 56
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S11008x4096, .i32⟩
  | .hbm, ⟨2, _⟩ => ⟨S704512, .f32⟩
  | .hbm, ⟨3, _⟩ => ⟨S11008x4096, .i32⟩
  | .hbm, ⟨4, _⟩ => ⟨S704512, .f32⟩
  | .hbm, ⟨5, _⟩ => ⟨S4096x11008, .i32⟩
  | .hbm, ⟨6, _⟩ => ⟨S704512, .f32⟩
  | .hbm, ⟨7, _⟩ => ⟨S16, .f32⟩
  | .hbm, ⟨8, _⟩ => ⟨S704512x64, .i32⟩
  | .hbm, ⟨9, _⟩ => ⟨S_, .i32⟩
  | .hbm, ⟨10, _⟩ => ⟨S704512x64, .i32⟩
  | .hbm, ⟨11, _⟩ => ⟨S704512x64, .i1⟩
  | .hbm, ⟨12, _⟩ => ⟨S_, .i32⟩
  | .hbm, ⟨13, _⟩ => ⟨S704512x64, .i32⟩
  | .hbm, ⟨14, _⟩ => ⟨S704512x64, .i32⟩
  | .hbm, ⟨15, _⟩ => ⟨S704512x64, .i32⟩
  | .hbm, ⟨16, _⟩ => ⟨S704512x64x1, .i32⟩
  | .hbm, ⟨17, _⟩ => ⟨S704512x64, .f32⟩
  | .hbm, ⟨18, _⟩ => ⟨S704512x1, .f32⟩
  | .hbm, ⟨19, _⟩ => ⟨S704512x64, .f32⟩
  | .hbm, ⟨20, _⟩ => ⟨S704512x64, .f32⟩
  | .hbm, ⟨21, _⟩ => ⟨S11008x4096, .f32⟩
  | .hbm, ⟨22, _⟩ => ⟨S11008x4096, .bf16⟩
  | .hbm, ⟨23, _⟩ => ⟨S704512x64, .i32⟩
  | .hbm, ⟨24, _⟩ => ⟨S_, .i32⟩
  | .hbm, ⟨25, _⟩ => ⟨S704512x64, .i32⟩
  | .hbm, ⟨26, _⟩ => ⟨S704512x64, .i1⟩
  | .hbm, ⟨27, _⟩ => ⟨S_, .i32⟩
  | .hbm, ⟨28, _⟩ => ⟨S704512x64, .i32⟩
  | .hbm, ⟨29, _⟩ => ⟨S704512x64, .i32⟩
  | .hbm, ⟨30, _⟩ => ⟨S704512x64, .i32⟩
  | .hbm, ⟨31, _⟩ => ⟨S704512x64x1, .i32⟩
  | .hbm, ⟨32, _⟩ => ⟨S704512x64, .f32⟩
  | .hbm, ⟨33, _⟩ => ⟨S704512x1, .f32⟩
  | .hbm, ⟨34, _⟩ => ⟨S704512x64, .f32⟩
  | .hbm, ⟨35, _⟩ => ⟨S704512x64, .f32⟩
  | .hbm, ⟨36, _⟩ => ⟨S11008x4096, .f32⟩
  | .hbm, ⟨37, _⟩ => ⟨S11008x4096, .bf16⟩
  | .hbm, ⟨38, _⟩ => ⟨S704512x64, .i32⟩
  | .hbm, ⟨39, _⟩ => ⟨S_, .i32⟩
  | .hbm, ⟨40, _⟩ => ⟨S704512x64, .i32⟩
  | .hbm, ⟨41, _⟩ => ⟨S704512x64, .i1⟩
  | .hbm, ⟨42, _⟩ => ⟨S_, .i32⟩
  | .hbm, ⟨43, _⟩ => ⟨S704512x64, .i32⟩
  | .hbm, ⟨44, _⟩ => ⟨S704512x64, .i32⟩
  | .hbm, ⟨45, _⟩ => ⟨S704512x64, .i32⟩
  | .hbm, ⟨46, _⟩ => ⟨S704512x64x1, .i32⟩
  | .hbm, ⟨47, _⟩ => ⟨S704512x64, .f32⟩
  | .hbm, ⟨48, _⟩ => ⟨S704512x1, .f32⟩
  | .hbm, ⟨49, _⟩ => ⟨S704512x64, .f32⟩
  | .hbm, ⟨50, _⟩ => ⟨S704512x64, .f32⟩
  | .hbm, ⟨51, _⟩ => ⟨S4096x11008, .f32⟩
  | .hbm, ⟨52, _⟩ => ⟨S4096x11008, .bf16⟩
  | .hbm, ⟨53, _⟩ => ⟨S8192x4096, .bf16⟩
  | .hbm, ⟨54, _⟩ => ⟨S8192x11008, .bf16⟩
  | .hbm, ⟨55, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1024x256, .bf16⟩
  | .local _ .vmem, ⟨7, _⟩ => ⟨S1024x256, .bf16⟩
  | .local _ .vmem, ⟨8, _⟩ => ⟨S1024x11008, .bf16⟩
  | .local _ .vmem, ⟨9, _⟩ => ⟨S256x11008, .bf16⟩
  | .local _ .vmem, ⟨10, _⟩ => ⟨S256x11008, .bf16⟩
  | .local _ .vmem, ⟨11, _⟩ => ⟨S1024x256, .f32⟩
  | .local _ .vmem, ⟨12, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S1024x11008 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S256x11008 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S11008x4096_S704512x64 : S11008x4096.ShapeCasts S704512x64
  bcast_S_S704512x64 : S_.BroadcastsInDim S704512x64 (![] : Fin 0 → Fin S704512x64.rank)
  bcast_S704512x64_S704512x64x1_0_1 : S704512x64.BroadcastsInDim S704512x64x1 (![0, 1] : Fin 2 → Fin S704512x64x1.rank)
  bcast_S704512_S704512x1_0 : S704512.BroadcastsInDim S704512x1 (![0] : Fin 1 → Fin S704512x1.rank)
  bcast_S704512x1_S704512x64_0_1 : S704512x1.BroadcastsInDim S704512x64 (![0, 1] : Fin 2 → Fin S704512x64.rank)
  shapeCasts_S704512x64_S11008x4096 : S704512x64.ShapeCasts S11008x4096
  bitsLt_bf16_f32 : FTy.bits .bf16 < FTy.bits .f32
  shapeCasts_S4096x11008_S704512x64 : S4096x11008.ShapeCasts S704512x64
  shapeCasts_S704512x64_S4096x11008 : S704512x64.ShapeCasts S4096x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  transposes_S256x4096_p1_0_S4096x256 : S256x4096.Transposes [1, 0] S4096x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S1024x11008_S1024x11008_0_0 : ∀ a, (![0, 0] : Fin 2 → Nat) a + S1024x11008.size a ≤ S1024x11008.size a
  h_S1024x11008 : 0 < S1024x11008.numel
  shapeCasts_S1024x11008_S1024x11008 : S1024x11008.ShapeCasts S1024x11008
  inb_S256x11008_S256x11008_0_0 : ∀ a, (![0, 0] : Fin 2 → Nat) a + S256x11008.size a ≤ S256x11008.size a
  h_S256x11008 : 0 < S256x11008.numel
  shapeCasts_S256x11008_S256x11008 : S256x11008.ShapeCasts S256x11008
  transposes_S256x11008_p1_0_S11008x256 : S256x11008.Transposes [1, 0] S11008x256
  gather_S16_S704512x64x1_S704512x64_n_0_n_n_0_2_1_wf : GatherDims.WF S16 S704512x64x1 S704512x64 [] [0] [] [0] [] 2 ![1]
  dot_S1024x4096_S4096x256_S1024x256_1_0_0_1_n_n_wf : DotDims.WF S1024x4096 S4096x256 S1024x256 [1] [0] [0] [1] [] []
  dot_S1024x11008_S11008x256_S1024x256_1_0_0_1_n_n_wf : DotDims.WF S1024x11008 S11008x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x11008.size a
  hwx0_3 : ∀ i : grid0.Coords, EltTy.bits .bf16 = 32 ∨ (Rect.block (s := S8192x11008) S1024x256.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x11008.size a ≤ S8192x11008.size a
  hwx1_0 : ∀ i : grid1.Coords, EltTy.bits .bf16 = 32 ∨ (Rect.block (s := S8192x11008) S1024x11008.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x11008.size a ≤ S4096x11008.size a
  hwx1_1 : ∀ i : grid1.Coords, EltTy.bits .bf16 = 32 ∨ (Rect.block (s := S4096x11008) S256x11008.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x4096.size a
  hwx1_2 : ∀ i : grid1.Coords, EltTy.bits .f32 = 32 ∨ (Rect.block (s := S8192x4096) S1024x256.size (cc1_transform_2 i) (hinb1_2 i)).WholeWords (EltTy.packing .f32)

variable [Facts₀]

def gather_S16_S704512x64x1_S704512x64_n_0_n_n_0_2_1 : GatherDims S16 S704512x64x1 S704512x64 where
  offsetDims := []
  collapsedSliceDims := [0]
  operandBatchingDims := []
  startIndicesBatchingDims := []
  startIndexMap := [0]
  indexVectorDim := 2
  sliceSizes := ![1]
  wf := gather_S16_S704512x64x1_S704512x64_n_0_n_n_0_2_1_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x11008_S11008x256_S1024x256_1_0_0_1_n_n : DotDims S1024x11008 S11008x256 S1024x256 where
  lhsContracting := [1]
  rhsContracting := [0]
  lhsNonContracting := [0]
  rhsNonContracting := [1]
  lhsBatch := []
  rhsBatch := []
  wf := dot_S1024x11008_S11008x256_S1024x256_1_0_0_1_n_n_wf

abbrev win0_0 : Pipeline.Window sig grid0 :=
  Pipeline.Window.ofSpec (Memref.whole main_v39) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S1024x11008.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v38) S256x11008.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S11008x4096 : Shape := ⟨2, ![11008, 4096]⟩
abbrev S704512 : Shape := ⟨1, ![704512]⟩
abbrev S4096x11008 : Shape := ⟨2, ![4096, 11008]⟩
abbrev S16 : Shape := ⟨1, ![16]⟩
abbrev S704512x64 : Shape := ⟨2, ![704512, 64]⟩
abbrev S_ : Shape := ⟨0, ![]⟩
abbrev S704512x64x1 : Shape := ⟨3, ![704512, 64, 1]⟩
abbrev S704512x1 : Shape := ⟨2, ![704512, 1]⟩
abbrev S8192x11008 : Shape := ⟨2, ![8192, 11008]⟩

abbrev nBuf : Space → Nat
  | .hbm => 66
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .i32⟩
  | .hbm, ⟨2, _⟩ => ⟨S704512, .f32⟩
  | .hbm, ⟨3, _⟩ => ⟨S11008x4096, .i32⟩
  | .hbm, ⟨4, _⟩ => ⟨S704512, .f32⟩
  | .hbm, ⟨5, _⟩ => ⟨S4096x11008, .i32⟩
  | .hbm, ⟨6, _⟩ => ⟨S704512, .f32⟩
  | .hbm, ⟨7, _⟩ => ⟨S16, .f32⟩
  | .hbm, ⟨8, _⟩ => ⟨S704512x64, .i32⟩
  | .hbm, ⟨9, _⟩ => ⟨S_, .i32⟩
  | .hbm, ⟨10, _⟩ => ⟨S704512x64, .i32⟩
  | .hbm, ⟨11, _⟩ => ⟨S704512x64, .i1⟩
  | .hbm, ⟨12, _⟩ => ⟨S_, .i32⟩
  | .hbm, ⟨13, _⟩ => ⟨S704512x64, .i32⟩
  | .hbm, ⟨14, _⟩ => ⟨S704512x64, .i32⟩
  | .hbm, ⟨15, _⟩ => ⟨S704512x64, .i32⟩
  | .hbm, ⟨16, _⟩ => ⟨S704512x64x1, .i32⟩
  | .hbm, ⟨17, _⟩ => ⟨S704512x64, .f32⟩
  | .hbm, ⟨18, _⟩ => ⟨S704512x1, .f32⟩
  | .hbm, ⟨19, _⟩ => ⟨S704512x64, .f32⟩
  | .hbm, ⟨20, _⟩ => ⟨S704512x64, .f32⟩
  | .hbm, ⟨21, _⟩ => ⟨S11008x4096, .f32⟩
  | .hbm, ⟨22, _⟩ => ⟨S704512x64, .i32⟩
  | .hbm, ⟨23, _⟩ => ⟨S_, .i32⟩
  | .hbm, ⟨24, _⟩ => ⟨S704512x64, .i32⟩
  | .hbm, ⟨25, _⟩ => ⟨S704512x64, .i1⟩
  | .hbm, ⟨26, _⟩ => ⟨S_, .i32⟩
  | .hbm, ⟨27, _⟩ => ⟨S704512x64, .i32⟩
  | .hbm, ⟨28, _⟩ => ⟨S704512x64, .i32⟩
  | .hbm, ⟨29, _⟩ => ⟨S704512x64, .i32⟩
  | .hbm, ⟨30, _⟩ => ⟨S704512x64x1, .i32⟩
  | .hbm, ⟨31, _⟩ => ⟨S704512x64, .f32⟩
  | .hbm, ⟨32, _⟩ => ⟨S704512x1, .f32⟩
  | .hbm, ⟨33, _⟩ => ⟨S704512x64, .f32⟩
  | .hbm, ⟨34, _⟩ => ⟨S704512x64, .f32⟩
  | .hbm, ⟨35, _⟩ => ⟨S11008x4096, .f32⟩
  | .hbm, ⟨36, _⟩ => ⟨S704512x64, .i32⟩
  | .hbm, ⟨37, _⟩ => ⟨S_, .i32⟩
  | .hbm, ⟨38, _⟩ => ⟨S704512x64, .i32⟩
  | .hbm, ⟨39, _⟩ => ⟨S704512x64, .i1⟩
  | .hbm, ⟨40, _⟩ => ⟨S_, .i32⟩
  | .hbm, ⟨41, _⟩ => ⟨S704512x64, .i32⟩
  | .hbm, ⟨42, _⟩ => ⟨S704512x64, .i32⟩
  | .hbm, ⟨43, _⟩ => ⟨S704512x64, .i32⟩
  | .hbm, ⟨44, _⟩ => ⟨S704512x64x1, .i32⟩
  | .hbm, ⟨45, _⟩ => ⟨S704512x64, .f32⟩
  | .hbm, ⟨46, _⟩ => ⟨S704512x1, .f32⟩
  | .hbm, ⟨47, _⟩ => ⟨S704512x64, .f32⟩
  | .hbm, ⟨48, _⟩ => ⟨S704512x64, .f32⟩
  | .hbm, ⟨49, _⟩ => ⟨S4096x11008, .f32⟩
  | .hbm, ⟨50, _⟩ => ⟨S4096x11008, .f32⟩
  | .hbm, ⟨51, _⟩ => ⟨S8192x11008, .f32⟩
  | .hbm, ⟨52, _⟩ => ⟨S8192x11008, .f32⟩
  | .hbm, ⟨53, _⟩ => ⟨S8192x11008, .f32⟩
  | .hbm, ⟨54, _⟩ => ⟨S_, .f32⟩
  | .hbm, ⟨55, _⟩ => ⟨S8192x11008, .f32⟩
  | .hbm, ⟨56, _⟩ => ⟨S8192x11008, .f32⟩
  | .hbm, ⟨57, _⟩ => ⟨S_, .f32⟩
  | .hbm, ⟨58, _⟩ => ⟨S8192x11008, .f32⟩
  | .hbm, ⟨59, _⟩ => ⟨S8192x11008, .f32⟩
  | .hbm, ⟨60, _⟩ => ⟨S8192x11008, .f32⟩
  | .hbm, ⟨61, _⟩ => ⟨S4096x11008, .f32⟩
  | .hbm, ⟨62, _⟩ => ⟨S8192x11008, .f32⟩
  | .hbm, ⟨63, _⟩ => ⟨S8192x11008, .f32⟩
  | .hbm, ⟨64, _⟩ => ⟨S11008x4096, .f32⟩
  | .hbm, ⟨65, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]

class Facts₀ : Prop where
  shapeCasts_S11008x4096_S704512x64 : S11008x4096.ShapeCasts S704512x64
  bcast_S_S704512x64 : S_.BroadcastsInDim S704512x64 (![] : Fin 0 → Fin S704512x64.rank)
  bcast_S704512x64_S704512x64x1_0_1 : S704512x64.BroadcastsInDim S704512x64x1 (![0, 1] : Fin 2 → Fin S704512x64x1.rank)
  bcast_S704512_S704512x1_0 : S704512.BroadcastsInDim S704512x1 (![0] : Fin 1 → Fin S704512x1.rank)
  bcast_S704512x1_S704512x64_0_1 : S704512x1.BroadcastsInDim S704512x64 (![0, 1] : Fin 2 → Fin S704512x64.rank)
  shapeCasts_S704512x64_S11008x4096 : S704512x64.ShapeCasts S11008x4096
  shapeCasts_S4096x11008_S704512x64 : S4096x11008.ShapeCasts S704512x64
  shapeCasts_S704512x64_S4096x11008 : S704512x64.ShapeCasts S4096x11008
  transposes_S11008x4096_S4096x11008_1_0 : S11008x4096.Transposes [1, 0] S4096x11008
  bcast_S_S8192x11008 : S_.BroadcastsInDim S8192x11008 (![] : Fin 0 → Fin S8192x11008.rank)
  transposes_S4096x11008_S11008x4096_1_0 : S4096x11008.Transposes [1, 0] S11008x4096
  gather_S16_S704512x64x1_S704512x64_n_0_n_n_0_2_1_wf : GatherDims.WF S16 S704512x64x1 S704512x64 [] [0] [] [0] [] 2 ![1]
  dot_S8192x4096_S4096x11008_S8192x11008_1_0_0_1_n_n_wf : DotDims.WF S8192x4096 S4096x11008 S8192x11008 [1] [0] [0] [1] [] []
  dot_S8192x11008_S11008x4096_S8192x4096_1_0_0_1_n_n_wf : DotDims.WF S8192x11008 S11008x4096 S8192x4096 [1] [0] [0] [1] [] []

variable [Facts₀]

def gather_S16_S704512x64x1_S704512x64_n_0_n_n_0_2_1 : GatherDims S16 S704512x64x1 S704512x64 where
  offsetDims := []
  collapsedSliceDims := [0]
  operandBatchingDims := []
  startIndicesBatchingDims := []
  startIndexMap := [0]
  indexVectorDim := 2
  sliceSizes := ![1]
  wf := gather_S16_S704512x64x1_S704512x64_n_0_n_n_0_2_1_wf
def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf
def dot_S8192x11008_S11008x4096_S8192x4096_1_0_0_1_n_n : DotDims S8192x11008 S11008x4096 S8192x4096 where
  lhsContracting := [1]
  rhsContracting := [0]
  lhsNonContracting := [0]
  rhsNonContracting := [1]
  lhsBatch := []
  rhsBatch := []
  wf := dot_S8192x11008_S11008x4096_S8192x4096_1_0_0_1_n_n_wf

class Facts : Prop extends Facts₀ where

variable [Facts]
-- ==== Proof.KernelRun.lean ====
/-
  What the whole run establishes, with the result array named.

  The program is one stretch of host operations followed by two pipelined regions. The contents of every buffer at
  each boundary are a fold through the program from the launch memory: after the host stretch, after the first region
  (its arrays at what its write-backs leave, every other buffer untouched), after the second region. Every weakly
  fair execution terminates without a fault, and in every final state EVERY unscoped buffer holds the last
  boundary's contents. Read at the seven argument arrays this says they end as launched (none is written by a host
  operation or a region); read at the result array it names that array's final contents: the last boundary's
  contents there, which is what the second region's write-backs leave.
-/
import proofs.«132417_j3410204033240_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option backward.isDefEq.respectTransparency.types false in
/-- From any memory with zero counters, every weakly fair execution of the program terminates, nothing faulting, and
    in every final state the result array holds the last boundary's contents and the seven argument arrays are as
    launched. The final thread state has every unscoped buffer at the last boundary's contents; the result array and
    the arguments are eight of those buffers, and at an argument the fold walks back to the launch memory. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v41) = W3 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v41 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.RunValue

end
-- ==== Proof.Dequant.lean ====
/-
  The weights as the programs store them: four-bit codes into a table of sixteen levels, with one scale per block of
  sixty-four consecutive entries.

  A weight matrix arrives as an integer array of codes of the matrix's own shape and a vector of 704512 scales.
  Read row by row the matrix is 704512 blocks of 64 entries; entry e of block b is level[code] · scale[b], where the
  code is first moved into range the way array indexing does it (a negative code has sixteen added) and then looks up
  the table of sixteen levels. The result is laid out again in the matrix's shape. Both programs spell this with the
  same operations, so it is kept as one function of the codes and the scales and is never opened: nothing in the
  proof depends on what the levels are or on what an out-of-range code reads.
-/
import Idealize.ShloMosaic.PureOps

noncomputable section

namespace Cert.Mlp

open Idealize.ShloMosaic

/-- Blocks × 64: a weight matrix read as its 704512 blocks. -/
abbrev SB : Shape := ⟨2, ![704512, 64]⟩
/-- The same with a trailing unit axis: the shape of the table look-up's index array. -/
abbrev SB1 : Shape := ⟨3, ![704512, 64, 1]⟩
/-- One scale per block. -/
abbrev SS : Shape := ⟨1, ![704512]⟩
/-- The scales as a column. -/
abbrev SS1 : Shape := ⟨2, ![704512, 1]⟩
/-- A scalar. -/
abbrev S0 : Shape := ⟨0, ![]⟩
/-- The table of levels. -/
abbrev ST : Shape := ⟨1, ![16]⟩

/-- The sixteen levels, as the binary words both programs print. -/
abbrev levels : Fin 16 → BitVec 32 := fun
  | 0 => 0xBF800000#32 | 1 => 0xBF3239B1#32 | 2 => 0xBF066B30#32 | 3 => 0xBECA32A0#32 | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32 | 12 => 0x3EE1A4B8#32 | 13 => 0x3F1007AB#32 | 14 => 0x3F3913B3#32 | 15 => 0x3F800000#32
  | _ => 0#32

/-- The weight matrix of shape `S` that the codes and the scales denote: level[code] · scale[block], block by block,
    laid out in the shape `S`. Its hypotheses are the layout conditions the operations carry (that `S` has as many
    entries as 704512 blocks of 64, and that each broadcast and the look-up are well formed). -/
def dequant {F : FTy → Type} [FloatOps F] {S : Shape}
    (hin : S.ShapeCasts SB)
    (hb0 : S0.BroadcastsInDim SB (![] : Fin 0 → Fin SB.rank))
    (hb1 : SB.BroadcastsInDim SB1 (![0, 1] : Fin 2 → Fin SB1.rank))
    (hg : GatherDims.WF ST SB1 SB [] [0] [] [0] [] 2 ![1])
    (hs0 : SS.BroadcastsInDim SS1 (![0] : Fin 1 → Fin SS1.rank))
    (hs1 : SS1.BroadcastsInDim SB (![0, 1] : Fin 2 → Fin SB.rank))
    (hout : SB.ShapeCasts S)
    (codes : IVec S 32) (scales : FVec F SS .f32) : FVec F S .f32 :=
  shapeCast S
    (mulf
      (Host.gather
        ({ offsetDims := [], collapsedSliceDims := [0], operandBatchingDims := [], startIndicesBatchingDims := [],
           startIndexMap := [0], indexVectorDim := 2, sliceSizes := ![1], wf := hg } : GatherDims ST SB1 SB)
        (fun i => FloatOps.ofBits .f32 (levels (ST.rowMajor i)))
        (broadcastInDim SB1 ![0, 1] hb1
          (select
            (cmpi .slt (shapeCast SB codes hin) (broadcastInDim SB ![] hb0 (constantI S0 32 0#32)))
            (addi (shapeCast SB codes hin) (broadcastInDim SB ![] hb0 (constantI S0 32 16#32)))
            (shapeCast SB codes hin))))
      (broadcastInDim SB ![0, 1] hs1 (broadcastInDim SS1 ![0] hs0 scales)))
    hout

end Cert.Mlp

end
-- ==== Proof.KernelHost.lean ====
/-
  What the first pallas_call finds in its operand arrays.

  Before the first region the program computes, on the host, the three weight matrices from their codes and scales
  (the table look-up times the per-block scale) and changes the format of each, and of the input, to the narrower
  float. So on entry the region's operand arrays hold the input and the dequantised W₁ and W₂, and the second
  region's weight operand holds the dequantised W₃ — each behind a change of float format, which is the identity on
  the extended reals. The host operations form one straight line, and an array's contents after it are read off the
  line operation by operation.
-/
import proofs.«132417_j3410204033240_2_alg».proof.Proof.Gen.KernelIdeal.Frame
import proofs.«132417_j3410204033240_2_alg».proof.Proof.Dequant
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F] [Cert.KernelIdeal.Facts]
variable (m : (ℓ : Loc nD τ sig) → Buf (Elt F) ℓ) (ρ : Dev nD → PrngReg)

/-- The first region's second operand: W₁, dequantised from the first codes and scales, in the narrower format. -/
theorem w1_entry (c : Dev nD) :
    (V1 m ρ c main_v12 : S11008x4096.Idx → F .bf16)
      = truncf .bf16 (Cert.Mlp.dequant Facts₀.shapeCasts_S11008x4096_S704512x64 Facts₀.bcast_S_S704512x64 Facts₀.bcast_S704512x64_S704512x64x1_0_1
          Facts₀.gather_S16_S704512x64x1_S704512x64_n_0_n_n_0_2_1_wf Facts₀.bcast_S704512_S704512x1_0 Facts₀.bcast_S704512x1_S704512x64_0_1
          Facts₀.shapeCasts_S704512x64_S11008x4096
          (m ((c : Thread nD τ).loc main_arg1)) (m ((c : Thread nD τ).loc main_arg2))) Facts₀.bitsLt_bf16_f32 := by
  show StableHlo.after hostOps0 (W0 m ρ c) (Proc.devRef .tc main_v12) = _
  dsimp only [hostOps0]
  after_results_simp
  rfl

/-- The first region's third operand: W₂, from the second codes and scales. -/
theorem w2_entry (c : Dev nD) :
    (V1 m ρ c main_v25 : S11008x4096.Idx → F .bf16)
      = truncf .bf16 (Cert.Mlp.dequant Facts₀.shapeCasts_S11008x4096_S704512x64 Facts₀.bcast_S_S704512x64 Facts₀.bcast_S704512x64_S704512x64x1_0_1
          Facts₀.gather_S16_S704512x64x1_S704512x64_n_0_n_n_0_2_1_wf Facts₀.bcast_S704512_S704512x1_0 Facts₀.bcast_S704512x1_S704512x64_0_1
          Facts₀.shapeCasts_S704512x64_S11008x4096
          (m ((c : Thread nD τ).loc main_arg3)) (m ((c : Thread nD τ).loc main_arg4))) Facts₀.bitsLt_bf16_f32 := by
  show StableHlo.after hostOps0 (W0 m ρ c) (Proc.devRef .tc main_v25) = _
  dsimp only [hostOps0]
  after_results_simp
  rfl

/-- The second region's weight operand as the host line leaves it: W₃, from the third codes and scales. -/
theorem w3_entry (c : Dev nD) :
    (V1 m ρ c main_v38 : S4096x11008.Idx → F .bf16)
      = truncf .bf16 (Cert.Mlp.dequant Facts₀.shapeCasts_S4096x11008_S704512x64 Facts₀.bcast_S_S704512x64 Facts₀.bcast_S704512x64_S704512x64x1_0_1
          Facts₀.gather_S16_S704512x64x1_S704512x64_n_0_n_n_0_2_1_wf Facts₀.bcast_S704512_S704512x1_0 Facts₀.bcast_S704512x1_S704512x64_0_1
          Facts₀.shapeCasts_S704512x64_S4096x11008
          (m ((c : Thread nD τ).loc main_arg5)) (m ((c : Thread nD τ).loc main_arg6))) Facts₀.bitsLt_bf16_f32 := by
  show StableHlo.after hostOps0 (W0 m ρ c) (Proc.devRef .tc main_v38) = _
  dsimp only [hostOps0]
  after_results_simp
  rfl

/-- The first region's first operand: the input in the narrower format. -/
theorem x_entry (c : Dev nD) :
    (V1 m ρ c main_v39 : S8192x4096.Idx → F .bf16)
      = truncf .bf16 (m ((c : Thread nD τ).loc main_arg0)) Facts₀.bitsLt_bf16_f32 := by
  show StableHlo.after hostOps0 (W0 m ρ c) (Proc.devRef .tc main_v39) = _
  dsimp only [hostOps0]
  after_results_simp

end Cert.KernelIdeal.HostValue

end
-- ==== Proof.Spec.lean ====
/-
  The function both programs compute: a gated two-layer perceptron.

  With x the tokens × width array of inputs and W₁, W₂ (hidden × width) and W₃ (width × hidden) the three weight
  matrices, every one stored row by row, the pre-activations are a₁[t, j] = ∑ₖ x[t, k] · W₁[j, k] and
  a₂[t, j] = ∑ₖ x[t, k] · W₂[j, k]; the hidden activation is h[t, j] = (a₁[t, j] · σ(a₁[t, j])) · a₂[t, j], σ the
  logistic function 1 / (1 + e⁻ᵃ); and the result is out[t, d] = ∑ⱼ h[t, j] · W₃[d, j]. Everything is over the
  extended reals, with the sums and products in exactly this order, so no law beyond the definitions is needed to
  recognise it in either program.
-/
import Idealize.ShloMosaic.PureOps.Ideal
import Idealize.ShloMosaic.Lib.ValueIdx

noncomputable section

namespace Cert.Mlp

open Idealize.ShloMosaic Idealize.ShloMosaic.ValueIdx

/-- Tokens × width. -/
abbrev SX : Shape := ⟨2, ![8192, 4096]⟩
/-- Hidden × width: the shape of W₁ and W₂. -/
abbrev SW : Shape := ⟨2, ![11008, 4096]⟩
/-- Width × hidden: the shape of W₃. -/
abbrev SV : Shape := ⟨2, ![4096, 11008]⟩
/-- Tokens × hidden. -/
abbrev SH : Shape := ⟨2, ![8192, 11008]⟩

/-- Row `t` of `x` against row `j` of `W`: the pre-activation ∑ₖ x[t, k] · W[j, k]. -/
def pre (x : SX.Idx → EReal) (W : SW.Idx → EReal) (t : Fin 8192) (j : Fin 11008) : EReal :=
  ∑ k : Fin 4096, x (ix2 t k) * W (ix2 j k)

/-- The gated activation (a₁ · σ(a₁)) · a₂ at token `t` and hidden unit `j`. -/
def gated (x : SX.Idx → EReal) (W1 W2 : SW.Idx → EReal) (t : Fin 8192) (j : Fin 11008) : EReal :=
  pre x W1 t j * Ideal.logistic (pre x W1 t j) * pre x W2 t j

/-- The hidden activations as one tokens × hidden array. -/
def hidden (x : SX.Idx → EReal) (W1 W2 : SW.Idx → EReal) : SH.Idx → EReal :=
  fun i => gated x W1 W2 (i 0) (i 1)

theorem hidden_ix2 (x : SX.Idx → EReal) (W1 W2 : SW.Idx → EReal) (t : Fin 8192) (j : Fin 11008) :
    hidden x W1 W2 (ix2 t j) = gated x W1 W2 t j := rfl

/-- The down projection: row `t` of `h` against row `d` of `W3`, ∑ⱼ h[t, j] · W₃[d, j]. -/
def down (h : SH.Idx → EReal) (W3 : SV.Idx → EReal) : SX.Idx → EReal :=
  fun i => ∑ j : Fin 11008, h (ix2 (i 0) j) * W3 (ix2 (i 1) j)

theorem down_ix2 (h : SH.Idx → EReal) (W3 : SV.Idx → EReal) (t : Fin 8192) (d : Fin 4096) :
    down h W3 (ix2 t d) = ∑ j : Fin 11008, h (ix2 t j) * W3 (ix2 d j) := rfl

/-- The whole perceptron. -/
def mlp (x : SX.Idx → EReal) (W1 W2 : SW.Idx → EReal) (W3 : SV.Idx → EReal) : SX.Idx → EReal :=
  down (hidden x W1 W2) W3

end Cert.Mlp

end
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.Body.lean ====
/-
  The two kernel bodies, entry by entry.

  Each body multiplies a block of rows of its left array by the transpose of a block of rows of its right array, so the
  entry (p, q) of the product is the sum over the shared coordinate of left[p, ·] · right[q, ·]: row p against row q.
  The first body does this twice, against two right arrays, and combines the two sums a₁ and a₂ as (a₁ · σ(a₁)) · a₂
  with σ the logistic function; the narrowing of the result's format does nothing to an extended real. The second body
  is the one product alone.
-/
import proofs.«132417_j3410204033240_2_alg».proof.Proof.Gen.KernelIdeal.Skeleton
import proofs.«132417_j3410204033240_2_alg».proof.Proof.LibMatmulBlock
import Idealize.ShloMosaic.Lib.ValueLayout

noncomputable section

namespace Cert.KernelIdeal.Body

open Idealize.ShloMosaic Idealize.ShloMosaic.ValueIdx Cert.KernelIdeal

/-- Rows against rows: an m×k array times the transpose of an n×k array, accumulated into zero, has at (p, q) the sum
    over c of A[p, c] · B[q, c]. Casting an array to its own shape changes nothing, and the transposed array at
    (c, q) is the array at (q, c). -/
private theorem rows_apply {m k n : Nat} {φ₁ φ₂ : FTy}
    (w : DotDims.WF ⟨2, ![m, k]⟩ ⟨2, ![k, n]⟩ ⟨2, ![m, n]⟩ [1] [0] [0] [1] [] [])
    (hA : (⟨2, ![m, k]⟩ : Shape).ShapeCasts ⟨2, ![m, k]⟩)
    (hB : (⟨2, ![n, k]⟩ : Shape).ShapeCasts ⟨2, ![n, k]⟩)
    (hT : (⟨2, ![n, k]⟩ : Shape).Transposes [1, 0] ⟨2, ![k, n]⟩)
    (A : FVec Ideal ⟨2, ![m, k]⟩ φ₁) (B : FVec Ideal ⟨2, ![n, k]⟩ φ₂) (p : Fin m) (q : Fin n) :
    matmul (⟨[1], [0], [0], [1], [], [], w⟩ : DotDims ⟨2, ![m, k]⟩ ⟨2, ![k, n]⟩ ⟨2, ![m, n]⟩) none
        (shapeCast ⟨2, ![m, k]⟩ A hA)
        (transpose ⟨2, ![k, n]⟩ [1, 0] (shapeCast ⟨2, ![n, k]⟩ B hB) hT)
        (constant (F := Ideal) ⟨2, ![m, n]⟩ .f32 0x00000000#32) (ix2 p q)
      = ∑ c : Fin k, A (ix2 p c) * B (ix2 q c) := by
  refine (Cert.LibMatmulBlock.matmul_zero_apply w none _ _ p q).trans ?_
  refine Finset.sum_congr rfl fun c _ => ?_
  rw [shapeCast_self, transpose_ix2_apply, shapeCast_self]

/-- The gated block at entry (p, q): with a₁ and a₂ the sums of row p of the left block against row q of each of the
    two right blocks, the value is (a₁ · σ(a₁)) · a₂. The products and the logistic function act entry by entry, and
    the change of format is the identity on the extended reals. -/
theorem gate_payload [Cert.KernelIdeal.Facts] (x0 : Vec Ideal S1024x4096 .bf16) (x1 x2 : Vec Ideal S256x4096 .bf16)
    (p : Fin 1024) (q : Fin 256) :
    Gen.k0_pay1 (F := Ideal) x0 x1 x2 (ix2 p q)
      = (∑ k : Fin 4096, x0 (ix2 p k) * x1 (ix2 q k)) * Ideal.logistic (∑ k : Fin 4096, x0 (ix2 p k) * x1 (ix2 q k))
          * (∑ k : Fin 4096, x0 (ix2 p k) * x2 (ix2 q k)) := by
  have e1 := rows_apply (φ₁ := .bf16) (φ₂ := .bf16) Facts₀.dot_S1024x4096_S4096x256_S1024x256_1_0_0_1_n_n_wf
    Facts₀.shapeCasts_S1024x4096_S1024x4096 Facts₀.shapeCasts_S256x4096_S256x4096
    Facts₀.transposes_S256x4096_p1_0_S4096x256 x0 x1 p q
  have e2 := rows_apply (φ₁ := .bf16) (φ₂ := .bf16) Facts₀.dot_S1024x4096_S4096x256_S1024x256_1_0_0_1_n_n_wf
    Facts₀.shapeCasts_S1024x4096_S1024x4096 Facts₀.shapeCasts_S256x4096_S256x4096
    Facts₀.transposes_S256x4096_p1_0_S4096x256 x0 x2 p q
  unfold Gen.k0_pay1
  show (_ : EReal) * Ideal.logistic _ * _ = _
  exact congrArg₂ (· * ·) (congrArg₂ (· * ·) e1 (congrArg Ideal.logistic e1)) e2

/-- The projected block at entry (p, q): row p of the left block against row q of the right block. -/
theorem down_payload [Cert.KernelIdeal.Facts] (x0 : Vec Ideal S1024x11008 .bf16) (x1 : Vec Ideal S256x11008 .bf16)
    (p : Fin 1024) (q : Fin 256) :
    Gen.k1_pay1 (F := Ideal) x0 x1 (ix2 p q) = ∑ j : Fin 11008, x0 (ix2 p j) * x1 (ix2 q j) :=
  rows_apply (φ₁ := .bf16) (φ₂ := .bf16) Facts₀.dot_S1024x11008_S11008x256_S1024x256_1_0_0_1_n_n_wf
    Facts₀.shapeCasts_S1024x11008_S1024x11008 Facts₀.shapeCasts_S256x11008_S256x11008
    Facts₀.transposes_S256x11008_p1_0_S11008x256 x0 x1 p q

end Cert.KernelIdeal.Body

end
-- ==== Proof.Region0Value.lean ====
/-
  The first pallas_call as one function of the arrays it finds.

  Its grid has 8 × 43 points. At point (t₀, t₁) the body holds rows 1024·t₀ … 1024·t₀ + 1023 of the input (all 4096
  columns) and rows 256·t₁ … 256·t₁ + 255 of W₁ and of W₂, forms the two products with the transposed weight blocks,
  gates the first by its own logistic and multiplies by the second, and writes the 1024 × 256 result to block
  (t₀, t₁) of the hidden activations. Entry (p, q) of that block is the gated activation of token 1024·t₀ + p and
  hidden unit 256·t₁ + q, which is the specification's hidden array at the entry's place; and the 344 blocks tile the
  8192 × 11008 array, so after the region it is the hidden array, whole.
-/
import proofs.«132417_j3410204033240_2_alg».proof.Proof.Gen.KernelIdeal.Frame
import proofs.«132417_j3410204033240_2_alg».proof.Proof.Spec
import proofs.«132417_j3410204033240_2_alg».proof.Proof.Body
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable [Cert.KernelIdeal.Facts]

variable (V : (c : Dev nD) → (b : Ref sig .tc) → Buf (Elt Ideal) ((c : Thread nD τ).loc b))

/-- The input as the region finds it. -/
abbrev inp (c : Dev nD) : Cert.Mlp.SX.Idx → EReal := V c main_v39
/-- W₁ as the region finds it. -/
abbrev w1 (c : Dev nD) : Cert.Mlp.SW.Idx → EReal := V c main_v12
/-- W₂ as the region finds it. -/
abbrev w2 (c : Dev nD) : Cert.Mlp.SW.Idx → EReal := V c main_v25

theorem origin : (![0, 0] : Fin 2 → Nat) = fun _ => 0 := funext fun a => by fin_cases a <;> rfl

/-- The index maps over the grid of 8 × 43 points: the input block follows the output block's row of blocks and spans
    all 4096 columns, each weight block follows the output block's column of blocks and spans all 4096 columns, and the
    output's block indices range over 8 × 43. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = win0_3.index t (1 : Fin 2) ∧ win0_2.index t (1 : Fin 2) = 0
    ∧ win0_3.index t (0 : Fin 2) ≤ 7 ∧ win0_3.index t (1 : Fin 2) ≤ 42 :=
  (by decide +kernel : ∀ t : Fin grid0.N, _)

/-- The grid is walked row by row: output block (q₀, q₁) is grid point 43·q₀ + q₁'s. -/
theorem block_at : ∀ (q0 : Fin 8) (q1 : Fin 43),
    win0_3.index (⟨(q0.val * 43 + q1.val) % grid0.N, Nat.mod_lt _ (by decide)⟩ : Fin grid0.N) = ![q0.val, q1.val] := by
  decide +kernel

/-- Every one of the 8 × 43 output blocks is some grid point's. -/
theorem block_onto (q0 : Fin 8) (q1 : Fin 43) : ∃ t : Fin cfg0.N, win0_3.index t = ![q0.val, q1.val] :=
  ⟨_, block_at q0 q1⟩

/-- A pre-activation read off the blocks: row `p` of the input block against row `q` of a weight block is row `r` of
    the input against row `s` of the weight matrix, when the blocks hold those rows. -/
theorem pre_of_blocks (x : Cert.Mlp.SX.Idx → EReal) (W : Cert.Mlp.SW.Idx → EReal)
    (xb : S1024x4096.Idx → EReal) (wb : S256x4096.Idx → EReal) (p : Fin 1024) (q : Fin 256) (r : Fin 8192) (s : Fin 11008)
    (hx : ∀ k : Fin 4096, xb (ix2 p k) = x (ix2 r k)) (hw : ∀ k : Fin 4096, wb (ix2 q k) = W (ix2 s k)) :
    ∑ k : Fin 4096, xb (ix2 p k) * wb (ix2 q k) = Cert.Mlp.pre x W r s :=
  Finset.sum_congr rfl fun k _ => by rw [hx k, hw k]

/-- What grid point `t` writes back is its 1024 × 256 block of the hidden array of the arrays the region finds. -/
theorem flushed_eq (c : Dev nD) (t : Fin cfg0.N) :
    (dat0 V c).flushed 3 t = ((cfg0.win 3).blk t).view.read (Elt Ideal) (Cert.Mlp.hidden (inp V c) (w1 V c) (w2 V c)) := by
  show (cfg0.win 3).cut (grid0.coords t) ((dat0 V c).after 3 t) = _
  rw [after0_3]
  unfold out0_3
  rw [View.canon_unit_zero origin]
  simp only [View.ld_unit_zero (S := S1024x4096) origin, View.ld_unit_zero (S := S256x4096) origin]
  obtain ⟨e0, e1, e2, e3, e4, e5, e6, e7⟩ := block_indices t
  refine funext fun (j : S1024x256.Idx) => ?_
  obtain ⟨p, q, rfl⟩ : ∃ (p : Fin 1024) (q : Fin 256), j = ix2 p q := ⟨j 0, j 1, eq_ix2 j⟩
  show k0_pay1 (iblk0 V c 0 t) (iblk0 V c 1 t) (iblk0 V c 2 t) (ix2 p q)
    = Cert.Mlp.hidden (inp V c) (w1 V c) (w2 V c) (((cfg0.win 3).blk t).view.emb (ix2 p q) : S8192x11008.Idx)
  refine (Body.gate_payload (iblk0 V c 0 t) (iblk0 V c 1 t) (iblk0 V c 2 t) p q).trans ?_
  obtain ⟨e, he⟩ : ∃ e : S8192x11008.Idx, e = ((cfg0.win 3).blk t).view.emb (ix2 p q) := ⟨_, rfl⟩
  have hr0 : (e 0).val = win0_3.index t (0 : Fin 2) * 1024 + 1 * p.val := (congrArg (fun x : S8192x11008.Idx => (x 0).val) he).trans rfl
  have hs0 : (e 1).val = win0_3.index t (1 : Fin 2) * 256 + 1 * q.val := (congrArg (fun x : S8192x11008.Idx => (x 1).val) he).trans rfl
  rw [← he]
  clear he
  obtain ⟨r, s, rfl⟩ : ∃ (r : Fin 8192) (s : Fin 11008), e = ix2 r s := ⟨e 0, e 1, eq_ix2 e⟩
  have hr : r.val = win0_3.index t (0 : Fin 2) * 1024 + 1 * p.val := hr0
  have hs : s.val = win0_3.index t (1 : Fin 2) * 256 + 1 * q.val := hs0
  have hx : ∀ k : Fin 4096, iblk0 V c 0 t (ix2 p k) = inp V c (ix2 r k) := fun k => by
    show V c main_v39 (((cfg0.win 0).blk t).view.emb (ix2 p k)) = V c main_v39 (ix2 r k)
    refine congrArg (V c main_v39) (funext fun a => Fin.ext ?_)
    match a with
    | ⟨0, _⟩ => show win0_0.index t (0 : Fin 2) * 1024 + 1 * p.val = r.val; omega
    | ⟨1, _⟩ => show win0_0.index t (1 : Fin 2) * 4096 + 1 * k.val = k.val; omega
  have hw1 : ∀ k : Fin 4096, iblk0 V c 1 t (ix2 q k) = w1 V c (ix2 s k) := fun k => by
    show V c main_v12 (((cfg0.win 1).blk t).view.emb (ix2 q k)) = V c main_v12 (ix2 s k)
    refine congrArg (V c main_v12) (funext fun a => Fin.ext ?_)
    match a with
    | ⟨0, _⟩ => show win0_1.index t (0 : Fin 2) * 256 + 1 * q.val = s.val; omega
    | ⟨1, _⟩ => show win0_1.index t (1 : Fin 2) * 4096 + 1 * k.val = k.val; omega
  have hw2 : ∀ k : Fin 4096, iblk0 V c 2 t (ix2 q k) = w2 V c (ix2 s k) := fun k => by
    show V c main_v25 (((cfg0.win 2).blk t).view.emb (ix2 q k)) = V c main_v25 (ix2 s k)
    refine congrArg (V c main_v25) (funext fun a => Fin.ext ?_)
    match a with
    | ⟨0, _⟩ => show win0_2.index t (0 : Fin 2) * 256 + 1 * q.val = s.val; omega
    | ⟨1, _⟩ => show win0_2.index t (1 : Fin 2) * 4096 + 1 * k.val = k.val; omega
  rw [Cert.Mlp.hidden_ix2]
  unfold Cert.Mlp.gated
  rw [pre_of_blocks (inp V c) (w1 V c) (iblk0 V c 0 t) (iblk0 V c 1 t) p q r s hx hw1,
    pre_of_blocks (inp V c) (w2 V c) (iblk0 V c 0 t) (iblk0 V c 2 t) p q r s hx hw2]

/-- An index of the hidden array lies in point `t`'s block iff each coordinate lies in the block's range on its axis. -/
theorem mem_blk (t : Fin cfg0.N) (i : S8192x11008.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v40).slice (win0_3.rect t)).set ↔ _
  rw [View.set_slice_whole, Rect.mem_set_unit]
  exact Iff.rfl

/-- The 8 × 43 blocks of 1024 × 256 tile the 8192 × 11008 array: entry (r, s) is in block (r / 1024, s / 256). -/
theorem cover (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  obtain ⟨t, ht⟩ := block_onto ⟨(i 0).val / 1024, by omega⟩ ⟨(i 1).val / 256, by omega⟩
  have q0 : win0_3.index t (0 : Fin 2) = (i 0).val / 1024 := congrFun ht 0
  have q1 : win0_3.index t (1 : Fin 2) = (i 1).val / 256 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- The hidden-activation array after the first region: the specification's hidden array of the input, W₁ and W₂ the
    region was entered with. -/
theorem final (c : Dev nD) : (dat0 V c).arrAt 3 cfg0.N = Cert.Mlp.hidden (inp V c) (w1 V c) (w2 V c) :=
  (dat0 V c).arrAt_eq_of_cover 3 _ (fun t _ => flushed_eq V c t) cover

end Cert.KernelIdeal.Region0

end
-- ==== Proof.Region1Value.lean ====
/-
  The second pallas_call as one function of the arrays it finds.

  Its grid has 8 × 16 points. At point (t₀, t₁) the body multiplies rows 1024·t₀ … 1024·t₀ + 1023 of the hidden
  activations (all 11008 columns) by the transpose of rows 256·t₁ … 256·t₁ + 255 of W₃ and writes the 1024 × 256
  product to block (t₀, t₁) of the output. Entry (p, q) of that block is therefore ∑ⱼ h[1024·t₀ + p, j] ·
  W₃[256·t₁ + q, j], which is the down projection at the entry's place in the whole array; and the 128 blocks tile
  the 8192 × 4096 output, so after the region the output array is the down projection, whole.
-/
import proofs.«132417_j3410204033240_2_alg».proof.Proof.Gen.KernelIdeal.Frame
import proofs.«132417_j3410204033240_2_alg».proof.Proof.Spec
import proofs.«132417_j3410204033240_2_alg».proof.Proof.Body
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable [Cert.KernelIdeal.Facts]

variable (V : (c : Dev nD) → (b : Ref sig .tc) → Buf (Elt Ideal) ((c : Thread nD τ).loc b))

/-- The hidden activations as the region finds them. -/
abbrev hid (c : Dev nD) : Cert.Mlp.SH.Idx → EReal := V c main_v40
/-- W₃ as the region finds it. -/
abbrev w3 (c : Dev nD) : Cert.Mlp.SV.Idx → EReal := V c main_v38

theorem origin : (![0, 0] : Fin 2 → Nat) = fun _ => 0 := funext fun a => by fin_cases a <;> rfl

/-- The index maps over the grid of 8 × 16 points: the hidden-activation block follows the output block's row of
    blocks and spans all 11008 columns, the weight block follows the output block's column of blocks and spans all
    11008 columns, and the output's block indices range over 8 × 16. -/
theorem block_indices : ∀ t : Fin cfg1.N,
    win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) ≤ 7 ∧ win1_2.index t (1 : Fin 2) ≤ 15 :=
  (by decide +kernel : ∀ t : Fin grid1.N, _)

/-- The grid is walked row by row: output block (q₀, q₁) is grid point 16·q₀ + q₁'s. -/
theorem block_at : ∀ (q0 : Fin 8) (q1 : Fin 16),
    win1_2.index (⟨(q0.val * 16 + q1.val) % grid1.N, Nat.mod_lt _ (by decide)⟩ : Fin grid1.N) = ![q0.val, q1.val] := by
  decide +kernel

/-- Every one of the 8 × 16 output blocks is some grid point's. -/
theorem block_onto (q0 : Fin 8) (q1 : Fin 16) : ∃ t : Fin cfg1.N, win1_2.index t = ![q0.val, q1.val] :=
  ⟨_, block_at q0 q1⟩

/-- What grid point `t` writes back is its 1024 × 256 block of the down projection of the arrays the region finds:
    entry (p, q) of the block is row `1024·t₀ + p` of the hidden activations against row `256·t₁ + q` of W₃, and
    the two input blocks hold exactly those rows. -/
theorem flushed_eq (c : Dev nD) (t : Fin cfg1.N) :
    (dat1 V c).flushed 2 t = ((cfg1.win 2).blk t).view.read (Elt Ideal) (Cert.Mlp.down (hid V c) (w3 V c)) := by
  show (cfg1.win 2).cut (grid1.coords t) ((dat1 V c).after 2 t) = _
  rw [after1_2]
  unfold out1_2
  rw [View.canon_unit_zero origin]
  simp only [View.ld_unit_zero (S := S1024x11008) origin, View.ld_unit_zero (S := S256x11008) origin]
  obtain ⟨e0, e1, e2, e3, e4, e5⟩ := block_indices t
  refine funext fun (j : S1024x256.Idx) => ?_
  obtain ⟨p, q, rfl⟩ : ∃ (p : Fin 1024) (q : Fin 256), j = ix2 p q := ⟨j 0, j 1, eq_ix2 j⟩
  show k1_pay1 (iblk1 V c 0 t) (iblk1 V c 1 t) (ix2 p q)
    = Cert.Mlp.down (hid V c) (w3 V c) (((cfg1.win 2).blk t).view.emb (ix2 p q) : S8192x4096.Idx)
  refine (Body.down_payload (iblk1 V c 0 t) (iblk1 V c 1 t) p q).trans ?_
  obtain ⟨e, he⟩ : ∃ e : S8192x4096.Idx, e = ((cfg1.win 2).blk t).view.emb (ix2 p q) := ⟨_, rfl⟩
  have hr0 : (e 0).val = win1_2.index t (0 : Fin 2) * 1024 + 1 * p.val := (congrArg (fun x : S8192x4096.Idx => (x 0).val) he).trans rfl
  have hs0 : (e 1).val = win1_2.index t (1 : Fin 2) * 256 + 1 * q.val := (congrArg (fun x : S8192x4096.Idx => (x 1).val) he).trans rfl
  rw [← he]
  clear he
  obtain ⟨r, s, rfl⟩ : ∃ (r : Fin 8192) (s : Fin 4096), e = ix2 r s := ⟨e 0, e 1, eq_ix2 e⟩
  have hr : r.val = win1_2.index t (0 : Fin 2) * 1024 + 1 * p.val := hr0
  have hs : s.val = win1_2.index t (1 : Fin 2) * 256 + 1 * q.val := hs0
  rw [Cert.Mlp.down_ix2]
  refine Finset.sum_congr rfl fun k _ => ?_
  have h0 : iblk1 V c 0 t (ix2 p k) = hid V c (ix2 r k) := by
    show V c main_v40 (((cfg1.win 0).blk t).view.emb (ix2 p k)) = V c main_v40 (ix2 r k)
    refine congrArg (V c main_v40) (funext fun a => Fin.ext ?_)
    match a with
    | ⟨0, _⟩ => show win1_0.index t (0 : Fin 2) * 1024 + 1 * p.val = r.val; omega
    | ⟨1, _⟩ => show win1_0.index t (1 : Fin 2) * 11008 + 1 * k.val = k.val; omega
  have h1 : iblk1 V c 1 t (ix2 q k) = w3 V c (ix2 s k) := by
    show V c main_v38 (((cfg1.win 1).blk t).view.emb (ix2 q k)) = V c main_v38 (ix2 s k)
    refine congrArg (V c main_v38) (funext fun a => Fin.ext ?_)
    match a with
    | ⟨0, _⟩ => show win1_1.index t (0 : Fin 2) * 256 + 1 * q.val = s.val; omega
    | ⟨1, _⟩ => show win1_1.index t (1 : Fin 2) * 11008 + 1 * k.val = k.val; omega
  rw [h0, h1]

/-- An index of the output array lies in point `t`'s block iff each coordinate lies in the block's range on its axis. -/
theorem mem_blk (t : Fin cfg1.N) (i : S8192x4096.Idx) :
    i ∈ ((cfg1.win 2).blk t).view.set ↔ ∀ a : Fin 2, win1_2.index t a * S1024x256.size a ≤ (i a).val
      ∧ (i a).val < win1_2.index t a * S1024x256.size a + S1024x256.size a := by
  show i ∈ ((View.whole main_v41).slice (win1_2.rect t)).set ↔ _
  rw [View.set_slice_whole, Rect.mem_set_unit]
  exact Iff.rfl

/-- The 8 × 16 blocks of 1024 × 256 tile the 8192 × 4096 output: entry (r, s) is in block (r / 1024, s / 256). -/
theorem cover (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := block_onto ⟨(i 0).val / 1024, by omega⟩ ⟨(i 1).val / 256, by omega⟩
  have q0 : win1_2.index t (0 : Fin 2) = (i 0).val / 1024 := congrFun ht 0
  have q1 : win1_2.index t (1 : Fin 2) = (i 1).val / 256 := congrFun ht 1
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 256 ≤ (i 1).val ∧ (i 1).val < win1_2.index t (1 : Fin 2) * 256 + 256; omega

/-- The output array after the second region: the down projection of the hidden activations and W₃ it was entered with. -/
theorem final (c : Dev nD) : (dat1 V c).arrAt 2 cfg1.N = Cert.Mlp.down (hid V c) (w3 V c) :=
  (dat1 V c).arrAt_eq_of_cover 2 _ (fun t _ => flushed_eq V c t) cover

end Cert.KernelIdeal.Region1

end
-- ==== Proof.KernelValue.lean ====
/-
  The kernel's result array as the specification's function of the arguments.

  After the host line and the two regions the result array holds what the second region leaves: the down projection
  of the hidden activations it found and the W₃ it found. The hidden activations it found are what the first region
  left: the gated activations of the input, W₁ and W₂ that region found. And what the regions found in their operand
  arrays is what the host line put there: the input and the three dequantised weight matrices, each behind a change
  of float format that is the identity on the extended reals. Chained, the result array is the whole perceptron of
  the input and the dequantised weights.
-/
import proofs.«132417_j3410204033240_2_alg».proof.Proof.KernelRun
import proofs.«132417_j3410204033240_2_alg».proof.Proof.KernelHost
import proofs.«132417_j3410204033240_2_alg».proof.Proof.Region0Value
import proofs.«132417_j3410204033240_2_alg».proof.Proof.Region1Value

set_option maxRecDepth 16384

noncomputable section

namespace Cert.KernelIdeal.Whole

open Cert.KernelIdeal Cert.KernelIdeal.Gen Idealize.ShloMosaic Idealize.ShloMosaic.TcCoe Idealize.SL.Sem

variable [Cert.KernelIdeal.Facts]
variable (m : (ℓ : Loc nD τ sig) → Buf (Elt Ideal) ℓ) (ρ : Dev nD → PrngReg)

/-- The input array at launch. -/
abbrev xOf (c : Dev nD) : Cert.Mlp.SX.Idx → EReal := m ((c : Thread nD τ).loc main_arg0)
/-- W₁: the first codes and scales, dequantised. -/
abbrev w1Of (c : Dev nD) : Cert.Mlp.SW.Idx → EReal :=
  Cert.Mlp.dequant (F := Ideal) Facts₀.shapeCasts_S11008x4096_S704512x64 Facts₀.bcast_S_S704512x64 Facts₀.bcast_S704512x64_S704512x64x1_0_1
          Facts₀.gather_S16_S704512x64x1_S704512x64_n_0_n_n_0_2_1_wf Facts₀.bcast_S704512_S704512x1_0 Facts₀.bcast_S704512x1_S704512x64_0_1
          Facts₀.shapeCasts_S704512x64_S11008x4096
    (m ((c : Thread nD τ).loc main_arg1)) (m ((c : Thread nD τ).loc main_arg2))
/-- W₂: the second codes and scales, dequantised. -/
abbrev w2Of (c : Dev nD) : Cert.Mlp.SW.Idx → EReal :=
  Cert.Mlp.dequant (F := Ideal) Facts₀.shapeCasts_S11008x4096_S704512x64 Facts₀.bcast_S_S704512x64 Facts₀.bcast_S704512x64_S704512x64x1_0_1
          Facts₀.gather_S16_S704512x64x1_S704512x64_n_0_n_n_0_2_1_wf Facts₀.bcast_S704512_S704512x1_0 Facts₀.bcast_S704512x1_S704512x64_0_1
          Facts₀.shapeCasts_S704512x64_S11008x4096
    (m ((c : Thread nD τ).loc main_arg3)) (m ((c : Thread nD τ).loc main_arg4))
/-- W₃: the third codes and scales, dequantised. -/
abbrev w3Of (c : Dev nD) : Cert.Mlp.SV.Idx → EReal :=
  Cert.Mlp.dequant (F := Ideal) Facts₀.shapeCasts_S4096x11008_S704512x64 Facts₀.bcast_S_S704512x64 Facts₀.bcast_S704512x64_S704512x64x1_0_1
          Facts₀.gather_S16_S704512x64x1_S704512x64_n_0_n_n_0_2_1_wf Facts₀.bcast_S704512_S704512x1_0 Facts₀.bcast_S704512x1_S704512x64_0_1
          Facts₀.shapeCasts_S704512x64_S4096x11008
    (m ((c : Thread nD τ).loc main_arg5)) (m ((c : Thread nD τ).loc main_arg6))

/-- What the first region finds: the input and the first two weight matrices (the change of format is the identity). -/
theorem inp_entry (c : Dev nD) : Region0.inp (V1 m ρ) c = xOf m c := HostValue.x_entry (F := Ideal) m ρ c
theorem w1_entry (c : Dev nD) : Region0.w1 (V1 m ρ) c = w1Of m c := HostValue.w1_entry (F := Ideal) m ρ c
theorem w2_entry (c : Dev nD) : Region0.w2 (V1 m ρ) c = w2Of m c := HostValue.w2_entry (F := Ideal) m ρ c

/-- What the second region finds in its first operand: the hidden activations the first region left. -/
theorem hid_entry (c : Dev nD) :
    Region1.hid (V2 m ρ) c = Cert.Mlp.hidden (xOf m c) (w1Of m c) (w2Of m c) := by
  have h : Region1.hid (V2 m ρ) c = Cert.Mlp.hidden (Region0.inp (V1 m ρ) c) (Region0.w1 (V1 m ρ) c) (Region0.w2 (V1 m ρ) c) :=
    (W2_arr m ρ c 3).trans (Region0.final (V1 m ρ) c)
  rw [inp_entry, w1_entry, w2_entry] at h
  exact h

/-- What the second region finds in its second operand: W₃, untouched by the first region. -/
theorem w3_entry (c : Dev nD) : Region1.w3 (V2 m ρ) c = w3Of m c :=
  (W2_of_ne m ρ c main_v38 (by decide)).trans (HostValue.w3_entry (F := Ideal) m ρ c)

/-- The result array after the run. -/
theorem result_eq (c : Dev nD) :
    W3 m ρ c (Proc.devRef .tc main_v41) = Cert.Mlp.mlp (xOf m c) (w1Of m c) (w2Of m c) (w3Of m c) := by
  have h : W3 m ρ c (Proc.devRef .tc main_v41) = Cert.Mlp.down (Region1.hid (V2 m ρ) c) (Region1.w3 (V2 m ρ) c) :=
    (W3_arr m ρ c 2).trans (Region1.final (V2 m ρ) c)
  rw [hid_entry, w3_entry] at h
  exact h

/-- Every weakly fair execution of the kernel's program ends with the result array at the perceptron of the input and the
    dequantised weights, and with the arguments as launched. -/
theorem run :
    θ_run (defs (F := Ideal)) (onTc (τ := τ) (main (F := Ideal))) ⟨m, fun _ => 0, ρ⟩ (fun r => ∀ c : Dev nD,
      r.2.mem ((c.tc : Thread nD τ).loc main_v41) = Cert.Mlp.mlp (xOf m c) (w1Of m c) (w2Of m c) (w3Of m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (RunValue.run_named (F := Ideal) m ρ)

end Cert.KernelIdeal.Whole

end
-- ==== Proof.RefRun.lean ====
/-
  The reference program's run, operation by operation.

  The reference's entry function is a straight line of tensor operations with one call in it, to the function that
  computes a ↦ a · (1 / (1 + e⁻ᵃ)). A call runs the callee's body on the caller's buffers, so the whole program is the
  list below: the entry function's operations in order with the callee's nine written out at the place of the call,
  over the buffers that call names. Run from any memory, every buffer ends holding what the list computes for it from
  the contents at launch, each operation rewriting its own result buffer and leaving every other buffer alone.
-/
import proofs.«132417_j3410204033240_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The entry function's operations in order: the three weight matrices rebuilt from their codes and scales
    (fifteen, fourteen and fourteen operations: the table of levels is written once), the first product with its
    transposed weight, the nine operations of the called function over the call's own buffers, the second product, the
    gate, and the last product. -/
abbrev ops : List (HloOp τ sig (Elt F)) :=
  [ StableHlo.nullary main_cst (fun i => FloatOps.ofBits .f32 (lit0 (S16.rowMajor i))),
    StableHlo.reshape main_arg1 main_v0 rfl shapeCasts_S11008x4096_S704512x64,
    StableHlo.nullary main_c (constantI S_ 32 0#32),
    StableHlo.unary main_c main_v1 (broadcastInDim S704512x64 ![] bcast_S_S704512x64 : (⟨S_, .i32⟩ : BufTy).Contents (Elt F) → (⟨S704512x64, .i32⟩ : BufTy).Contents (Elt F)),
    StableHlo.binary main_v0 main_v1 main_v2 (cmpi .slt : (⟨S704512x64, .i32⟩ : BufTy).Contents (Elt F) → (⟨S704512x64, .i32⟩ : BufTy).Contents (Elt F) → (⟨S704512x64, .i1⟩ : BufTy).Contents (Elt F)),
    StableHlo.nullary main_c_0 (constantI S_ 32 16#32),
    StableHlo.unary main_c_0 main_v3 (broadcastInDim S704512x64 ![] bcast_S_S704512x64 : (⟨S_, .i32⟩ : BufTy).Contents (Elt F) → (⟨S704512x64, .i32⟩ : BufTy).Contents (Elt F)),
    StableHlo.binary main_v0 main_v3 main_v4 (addi : (⟨S704512x64, .i32⟩ : BufTy).Contents (Elt F) → (⟨S704512x64, .i32⟩ : BufTy).Contents (Elt F) → (⟨S704512x64, .i32⟩ : BufTy).Contents (Elt F)),
    StableHlo.ternary main_v2 main_v4 main_v0 main_v5 (select : (⟨S704512x64, .i1⟩ : BufTy).Contents (Elt F) → (⟨S704512x64, .i32⟩ : BufTy).Contents (Elt F) → (⟨S704512x64, .i32⟩ : BufTy).Contents (Elt F) → (⟨S704512x64, .i32⟩ : BufTy).Contents (Elt F)),
    StableHlo.unary main_v5 main_v6 (broadcastInDim S704512x64x1 ![0, 1] bcast_S704512x64_S704512x64x1_0_1 : (⟨S704512x64, .i32⟩ : BufTy).Contents (Elt F) → (⟨S704512x64x1, .i32⟩ : BufTy).Contents (Elt F)),
    StableHlo.binary main_cst main_v6 main_v7 ((fun x i => Host.gather gather_S16_S704512x64x1_S704512x64_n_0_n_n_0_2_1 x i) : (⟨S16, .f32⟩ : BufTy).Contents (Elt F) → (⟨S704512x64x1, .i32⟩ : BufTy).Contents (Elt F) → (⟨S704512x64, .f32⟩ : BufTy).Contents (Elt F)),
    StableHlo.unary main_arg2 main_v8 (broadcastInDim S704512x1 ![0] bcast_S704512_S704512x1_0 : (⟨S704512, .f32⟩ : BufTy).Contents (Elt F) → (⟨S704512x1, .f32⟩ : BufTy).Contents (Elt F)),
    StableHlo.unary main_v8 main_v9 (broadcastInDim S704512x64 ![0, 1] bcast_S704512x1_S704512x64_0_1 : (⟨S704512x1, .f32⟩ : BufTy).Contents (Elt F) → (⟨S704512x64, .f32⟩ : BufTy).Contents (Elt F)),
    StableHlo.binary main_v7 main_v9 main_v10 (mulf : (⟨S704512x64, .f32⟩ : BufTy).Contents (Elt F) → (⟨S704512x64, .f32⟩ : BufTy).Contents (Elt F) → (⟨S704512x64, .f32⟩ : BufTy).Contents (Elt F)),
    StableHlo.reshape main_v10 main_v11 rfl shapeCasts_S704512x64_S11008x4096,
    StableHlo.reshape main_arg3 main_v12 rfl shapeCasts_S11008x4096_S704512x64,
    StableHlo.nullary main_c_1 (constantI S_ 32 0#32),
    StableHlo.unary main_c_1 main_v13 (broadcastInDim S704512x64 ![] bcast_S_S704512x64 : (⟨S_, .i32⟩ : BufTy).Contents (Elt F) → (⟨S704512x64, .i32⟩ : BufTy).Contents (Elt F)),
    StableHlo.binary main_v12 main_v13 main_v14 (cmpi .slt : (⟨S704512x64, .i32⟩ : BufTy).Contents (Elt F) → (⟨S704512x64, .i32⟩ : BufTy).Contents (Elt F) → (⟨S704512x64, .i1⟩ : BufTy).Contents (Elt F)),
    StableHlo.nullary main_c_2 (constantI S_ 32 16#32),
    StableHlo.unary main_c_2 main_v15 (broadcastInDim S704512x64 ![] bcast_S_S704512x64 : (⟨S_, .i32⟩ : BufTy).Contents (Elt F) → (⟨S704512x64, .i32⟩ : BufTy).Contents (Elt F)),
    StableHlo.binary main_v12 main_v15 main_v16 (addi : (⟨S704512x64, .i32⟩ : BufTy).Contents (Elt F) → (⟨S704512x64, .i32⟩ : BufTy).Contents (Elt F) → (⟨S704512x64, .i32⟩ : BufTy).Contents (Elt F)),
    StableHlo.ternary main_v14 main_v16 main_v12 main_v17 (select : (⟨S704512x64, .i1⟩ : BufTy).Contents (Elt F) → (⟨S704512x64, .i32⟩ : BufTy).Contents (Elt F) → (⟨S704512x64, .i32⟩ : BufTy).Contents (Elt F) → (⟨S704512x64, .i32⟩ : BufTy).Contents (Elt F)),
    StableHlo.unary main_v17 main_v18 (broadcastInDim S704512x64x1 ![0, 1] bcast_S704512x64_S704512x64x1_0_1 : (⟨S704512x64, .i32⟩ : BufTy).Contents (Elt F) → (⟨S704512x64x1, .i32⟩ : BufTy).Contents (Elt F)),
    StableHlo.binary main_cst main_v18 main_v19 ((fun x i => Host.gather gather_S16_S704512x64x1_S704512x64_n_0_n_n_0_2_1 x i) : (⟨S16, .f32⟩ : BufTy).Contents (Elt F) → (⟨S704512x64x1, .i32⟩ : BufTy).Contents (Elt F) → (⟨S704512x64, .f32⟩ : BufTy).Contents (Elt F)),
    StableHlo.unary main_arg4 main_v20 (broadcastInDim S704512x1 ![0] bcast_S704512_S704512x1_0 : (⟨S704512, .f32⟩ : BufTy).Contents (Elt F) → (⟨S704512x1, .f32⟩ : BufTy).Contents (Elt F)),
    StableHlo.unary main_v20 main_v21 (broadcastInDim S704512x64 ![0, 1] bcast_S704512x1_S704512x64_0_1 : (⟨S704512x1, .f32⟩ : BufTy).Contents (Elt F) → (⟨S704512x64, .f32⟩ : BufTy).Contents (Elt F)),
    StableHlo.binary main_v19 main_v21 main_v22 (mulf : (⟨S704512x64, .f32⟩ : BufTy).Contents (Elt F) → (⟨S704512x64, .f32⟩ : BufTy).Contents (Elt F) → (⟨S704512x64, .f32⟩ : BufTy).Contents (Elt F)),
    StableHlo.reshape main_v22 main_v23 rfl shapeCasts_S704512x64_S11008x4096,
    StableHlo.reshape main_arg5 main_v24 rfl shapeCasts_S4096x11008_S704512x64,
    StableHlo.nullary main_c_3 (constantI S_ 32 0#32),
    StableHlo.unary main_c_3 main_v25 (broadcastInDim S704512x64 ![] bcast_S_S704512x64 : (⟨S_, .i32⟩ : BufTy).Contents (Elt F) → (⟨S704512x64, .i32⟩ : BufTy).Contents (Elt F)),
    StableHlo.binary main_v24 main_v25 main_v26 (cmpi .slt : (⟨S704512x64, .i32⟩ : BufTy).Contents (Elt F) → (⟨S704512x64, .i32⟩ : BufTy).Contents (Elt F) → (⟨S704512x64, .i1⟩ : BufTy).Contents (Elt F)),
    StableHlo.nullary main_c_4 (constantI S_ 32 16#32),
    StableHlo.unary main_c_4 main_v27 (broadcastInDim S704512x64 ![] bcast_S_S704512x64 : (⟨S_, .i32⟩ : BufTy).Contents (Elt F) → (⟨S704512x64, .i32⟩ : BufTy).Contents (Elt F)),
    StableHlo.binary main_v24 main_v27 main_v28 (addi : (⟨S704512x64, .i32⟩ : BufTy).Contents (Elt F) → (⟨S704512x64, .i32⟩ : BufTy).Contents (Elt F) → (⟨S704512x64, .i32⟩ : BufTy).Contents (Elt F)),
    StableHlo.ternary main_v26 main_v28 main_v24 main_v29 (select : (⟨S704512x64, .i1⟩ : BufTy).Contents (Elt F) → (⟨S704512x64, .i32⟩ : BufTy).Contents (Elt F) → (⟨S704512x64, .i32⟩ : BufTy).Contents (Elt F) → (⟨S704512x64, .i32⟩ : BufTy).Contents (Elt F)),
    StableHlo.unary main_v29 main_v30 (broadcastInDim S704512x64x1 ![0, 1] bcast_S704512x64_S704512x64x1_0_1 : (⟨S704512x64, .i32⟩ : BufTy).Contents (Elt F) → (⟨S704512x64x1, .i32⟩ : BufTy).Contents (Elt F)),
    StableHlo.binary main_cst main_v30 main_v31 ((fun x i => Host.gather gather_S16_S704512x64x1_S704512x64_n_0_n_n_0_2_1 x i) : (⟨S16, .f32⟩ : BufTy).Contents (Elt F) → (⟨S704512x64x1, .i32⟩ : BufTy).Contents (Elt F) → (⟨S704512x64, .f32⟩ : BufTy).Contents (Elt F)),
    StableHlo.unary main_arg6 main_v32 (broadcastInDim S704512x1 ![0] bcast_S704512_S704512x1_0 : (⟨S704512, .f32⟩ : BufTy).Contents (Elt F) → (⟨S704512x1, .f32⟩ : BufTy).Contents (Elt F)),
    StableHlo.unary main_v32 main_v33 (broadcastInDim S704512x64 ![0, 1] bcast_S704512x1_S704512x64_0_1 : (⟨S704512x1, .f32⟩ : BufTy).Contents (Elt F) → (⟨S704512x64, .f32⟩ : BufTy).Contents (Elt F)),
    StableHlo.binary main_v31 main_v33 main_v34 (mulf : (⟨S704512x64, .f32⟩ : BufTy).Contents (Elt F) → (⟨S704512x64, .f32⟩ : BufTy).Contents (Elt F) → (⟨S704512x64, .f32⟩ : BufTy).Contents (Elt F)),
    StableHlo.reshape main_v34 main_v35 rfl shapeCasts_S704512x64_S4096x11008,
    StableHlo.unary main_v11 main_v36 ((transpose S4096x11008 [1, 0] · transposes_S11008x4096_S4096x11008_1_0) : (⟨S11008x4096, .f32⟩ : BufTy).Contents (Elt F) → (⟨S4096x11008, .f32⟩ : BufTy).Contents (Elt F)),
    StableHlo.binary main_arg0 main_v36 main_v37 ((fun l r => Host.dotGeneral dot_S8192x4096_S4096x11008_S8192x11008_1_0_0_1_n_n none l r) : (⟨S8192x4096, .f32⟩ : BufTy).Contents (Elt F) → (⟨S4096x11008, .f32⟩ : BufTy).Contents (Elt F) → (⟨S8192x11008, .f32⟩ : BufTy).Contents (Elt F)),
    StableHlo.TRef.unary (.of main_v37) main_call0.v0 Host.negf,
    StableHlo.TRef.unary main_call0.v0 main_call0.v1 Host.exp,
    StableHlo.TRef.nullary main_call0.cst (constant S_ .f32 0x3F800000#32),
    StableHlo.TRef.unary main_call0.cst main_call0.v2 (broadcastInDim S8192x11008 ![] bcast_S_S8192x11008),
    StableHlo.TRef.binary main_call0.v2 main_call0.v1 main_call0.v3 addf,
    StableHlo.TRef.nullary main_call0.cst_0 (constant S_ .f32 0x3F800000#32),
    StableHlo.TRef.unary main_call0.cst_0 main_call0.v4 (broadcastInDim S8192x11008 ![] bcast_S_S8192x11008),
    StableHlo.TRef.binary main_call0.v4 main_call0.v3 main_call0.v5 Host.divf,
    StableHlo.TRef.binary (.of main_v37) main_call0.v5 main_call0.v6 mulf,
    StableHlo.unary main_v23 main_v39 ((transpose S4096x11008 [1, 0] · transposes_S11008x4096_S4096x11008_1_0) : (⟨S11008x4096, .f32⟩ : BufTy).Contents (Elt F) → (⟨S4096x11008, .f32⟩ : BufTy).Contents (Elt F)),
    StableHlo.binary main_arg0 main_v39 main_v40 ((fun l r => Host.dotGeneral dot_S8192x4096_S4096x11008_S8192x11008_1_0_0_1_n_n none l r) : (⟨S8192x4096, .f32⟩ : BufTy).Contents (Elt F) → (⟨S4096x11008, .f32⟩ : BufTy).Contents (Elt F) → (⟨S8192x11008, .f32⟩ : BufTy).Contents (Elt F)),
    StableHlo.binary main_v38 main_v40 main_v41 (mulf : (⟨S8192x11008, .f32⟩ : BufTy).Contents (Elt F) → (⟨S8192x11008, .f32⟩ : BufTy).Contents (Elt F) → (⟨S8192x11008, .f32⟩ : BufTy).Contents (Elt F)),
    StableHlo.unary main_v35 main_v42 ((transpose S11008x4096 [1, 0] · transposes_S4096x11008_S11008x4096_1_0) : (⟨S4096x11008, .f32⟩ : BufTy).Contents (Elt F) → (⟨S11008x4096, .f32⟩ : BufTy).Contents (Elt F)),
    StableHlo.binary main_v41 main_v42 main_v43 ((fun l r => Host.dotGeneral dot_S8192x11008_S11008x4096_S8192x4096_1_0_0_1_n_n none l r) : (⟨S8192x11008, .f32⟩ : BufTy).Contents (Elt F) → (⟨S11008x4096, .f32⟩ : BufTy).Contents (Elt F) → (⟨S8192x4096, .f32⟩ : BufTy).Contents (Elt F)) ]

-- fifty-nine sequencing steps are re-associated one inside the other
set_option maxRecDepth 4096 in
/-- The entry function is that straight line: with the called function's definition opened at the call and the
    sequencing re-associated, both sides are the same chain of steps. -/
theorem main_eq (c : Dev nD) : main (F := F) c = seq ops := by
  simp only [main, fn_silu.body, seq, bind_assoc, pure_bind]

/-- No buffer of the program is scoped to a region. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨nullary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., reshape_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., reshape_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    reshape_bufs_sub .., unary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    unary_bufs_sub .., binary_bufs_sub .., binary_bufs_sub .., unary_bufs_sub .., binary_bufs_sub ..⟩

/-- From any memory with zero counters, every weakly fair execution of the entry function terminates, and every buffer
    of every device ends at what the operations, folded in order over the contents at launch, leave in it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  What the reference program computes, read as the specification.

  The run of the reference leaves in its result buffer the composition of its operations applied to the contents of the
  seven argument buffers at launch. Three of the chains in that composition rebuild a weight matrix from its codes and
  scales; each is kept as the one function `Cert.Mlp.dequant` of the codes and the scales and is never opened. The rest
  is: the product of the input with the first weight matrix transposed, the map a ↦ a · (1 / (1 + e⁻ᵃ)) on it, the
  product with the second weight matrix transposed, the entrywise product of the two, and the product of that with the
  third weight matrix transposed. Entry by entry, a product against a transposed matrix is the sum over the shared
  coordinate of the two rows' entries, and 1 / (1 + e⁻ᵃ) is the logistic function, so the composition is the gated
  perceptron of Spec.lean applied to the input and the three rebuilt matrices.
-/
import proofs.«132417_j3410204033240_2_alg».proof.Proof.RefRun
import proofs.«132417_j3410204033240_2_alg».proof.Proof.Spec
import proofs.«132417_j3410204033240_2_alg».proof.Proof.Dequant
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Facts₀ Cert.ReferenceIdeal.RefRun Idealize.ShloMosaic Idealize.ShloMosaic.TcCoe
  Idealize.SL.Sem Idealize.ShloMosaic.StableHlo Idealize.ShloMosaic.ValueIdx

variable [Cert.ReferenceIdeal.Facts]

/-! ## The composition, over the three weight matrices -/

/-- The product of the input with a hidden × width matrix transposed: tokens × hidden. -/
def proj (x : FVec Ideal S8192x4096 .f32) (W : FVec Ideal S11008x4096 .f32) : FVec Ideal S8192x11008 .f32 :=
  Host.dotGeneral dot_S8192x4096_S4096x11008_S8192x11008_1_0_0_1_n_n none x
    (transpose S4096x11008 [1, 0] W transposes_S11008x4096_S4096x11008_1_0)

/-- The called function, a ↦ a · (1 / (1 + e⁻ᵃ)) entrywise, in the operations the program spells it with. -/
def act (A : FVec Ideal S8192x11008 .f32) : FVec Ideal S8192x11008 .f32 :=
  mulf A
    (Host.divf (broadcastInDim S8192x11008 ![] bcast_S_S8192x11008 (constant (F := Ideal) S_ .f32 0x3F800000#32))
      (addf (broadcastInDim S8192x11008 ![] bcast_S_S8192x11008 (constant (F := Ideal) S_ .f32 0x3F800000#32))
        (Host.exp (Host.negf A))))

/-- Everything after the weights are rebuilt: the two projections, the gate, and the product with the third matrix
    transposed. -/
def core (x : FVec Ideal S8192x4096 .f32) (W1 W2 : FVec Ideal S11008x4096 .f32) (W3 : FVec Ideal S4096x11008 .f32) :
    FVec Ideal S8192x4096 .f32 :=
  Host.dotGeneral dot_S8192x11008_S11008x4096_S8192x4096_1_0_0_1_n_n none
    (mulf (act (proj x W1)) (proj x W2))
    (transpose S11008x4096 [1, 0] W3 transposes_S4096x11008_S11008x4096_1_0)

/-! ## The result buffer after the operations -/

-- the table look-up and the exponential are never looked into: only their arguments are compared
attribute [local irreducible] Host.gather Host.exp in
set_option maxRecDepth 8192 in
/-- Folding the operations over any contents leaves, in the result buffer, `core` of the input and the three matrices
    rebuilt from the codes and scales: each operation's result is its function of its operands' contents, and the
    chains that rebuild the weights are `Cert.Mlp.dequant` operation for operation. -/
theorem out_eq (V : Valuation τ sig (Elt Ideal)) :
    after (ops (F := Ideal)) V (main_v43 : DevRef τ sig)
      = core (V (main_arg0 : DevRef τ sig))
          (Cert.Mlp.dequant shapeCasts_S11008x4096_S704512x64 bcast_S_S704512x64 bcast_S704512x64_S704512x64x1_0_1 gather_S16_S704512x64x1_S704512x64_n_0_n_n_0_2_1_wf bcast_S704512_S704512x1_0 bcast_S704512x1_S704512x64_0_1 shapeCasts_S704512x64_S11008x4096 (V (main_arg1 : DevRef τ sig)) (V (main_arg2 : DevRef τ sig)))
          (Cert.Mlp.dequant shapeCasts_S11008x4096_S704512x64 bcast_S_S704512x64 bcast_S704512x64_S704512x64x1_0_1 gather_S16_S704512x64x1_S704512x64_n_0_n_n_0_2_1_wf bcast_S704512_S704512x1_0 bcast_S704512x1_S704512x64_0_1 shapeCasts_S704512x64_S11008x4096 (V (main_arg3 : DevRef τ sig)) (V (main_arg4 : DevRef τ sig)))
          (Cert.Mlp.dequant shapeCasts_S4096x11008_S704512x64 bcast_S_S704512x64 bcast_S704512x64_S704512x64x1_0_1 gather_S16_S704512x64x1_S704512x64_n_0_n_n_0_2_1_wf bcast_S704512_S704512x1_0 bcast_S704512x1_S704512x64_0_1 shapeCasts_S704512x64_S4096x11008 (V (main_arg5 : DevRef τ sig)) (V (main_arg6 : DevRef τ sig))) := by
  after_results_simp
  rfl

/-- No operation writes argument 0's buffer. -/
theorem arg0_eq (V : Valuation τ sig (Elt Ideal)) :
    after (ops (F := Ideal)) V (main_arg0 : DevRef τ sig) = V (main_arg0 : DevRef τ sig) := by
  after_results_simp

/-- No operation writes argument 1's buffer. -/
theorem arg1_eq (V : Valuation τ sig (Elt Ideal)) :
    after (ops (F := Ideal)) V (main_arg1 : DevRef τ sig) = V (main_arg1 : DevRef τ sig) := by
  after_results_simp

/-- No operation writes argument 2's buffer. -/
theorem arg2_eq (V : Valuation τ sig (Elt Ideal)) :
    after (ops (F := Ideal)) V (main_arg2 : DevRef τ sig) = V (main_arg2 : DevRef τ sig) := by
  after_results_simp

/-- No operation writes argument 3's buffer. -/
theorem arg3_eq (V : Valuation τ sig (Elt Ideal)) :
    after (ops (F := Ideal)) V (main_arg3 : DevRef τ sig) = V (main_arg3 : DevRef τ sig) := by
  after_results_simp

/-- No operation writes argument 4's buffer. -/
theorem arg4_eq (V : Valuation τ sig (Elt Ideal)) :
    after (ops (F := Ideal)) V (main_arg4 : DevRef τ sig) = V (main_arg4 : DevRef τ sig) := by
  after_results_simp

/-- No operation writes argument 5's buffer. -/
theorem arg5_eq (V : Valuation τ sig (Elt Ideal)) :
    after (ops (F := Ideal)) V (main_arg5 : DevRef τ sig) = V (main_arg5 : DevRef τ sig) := by
  after_results_simp

/-- No operation writes argument 6's buffer. -/
theorem arg6_eq (V : Valuation τ sig (Elt Ideal)) :
    after (ops (F := Ideal)) V (main_arg6 : DevRef τ sig) = V (main_arg6 : DevRef τ sig) := by
  after_results_simp

/-! ## The composition is the perceptron, entry by entry -/

/-- The binary word 0x3F800000 is the number one. -/
theorem ofBits_one_f32 : Ideal.ofBits .f32 0x3F800000#32 = 1 := by
  simp [Ideal.ofBits, Ideal.ieee, -EReal.coe_mul]
  norm_num

/-- A product of an m×k array by a k×n array, contracted over the left operand's second axis and the right operand's
    first, has at entry (a, b) the sum over the contracted coordinate c of A[a, c] · B[c, b]: the contraction's index
    set has one axis of extent k, and the sum over it is re-indexed by that axis's coordinate. -/
theorem dotGeneral_ix2 {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A projection at token t and hidden unit j is the pre-activation: row t of the input against row j of the matrix
    (the transposed matrix at (k, j) is the matrix at (j, k)). -/
theorem proj_apply (x : FVec Ideal S8192x4096 .f32) (W : FVec Ideal S11008x4096 .f32) (t : Fin 8192) (j : Fin 11008) :
    proj x W (ix2 t j) = Cert.Mlp.pre x W t j := by
  unfold proj Cert.Mlp.pre
  refine (dotGeneral_ix2 dot_S8192x4096_S4096x11008_S8192x11008_1_0_0_1_n_n_wf none x _ t j).trans ?_
  refine Finset.sum_congr rfl fun k _ => ?_
  rw [transpose_ix2_apply]

/-- The called function at an entry is a · σ(a), σ the logistic function: 1 / (1 + e⁻ᵃ) is its definition once the
    two constants are read as the number one. -/
theorem act_apply (A : FVec Ideal S8192x11008 .f32) (i : S8192x11008.Idx) : act A i = A i * Ideal.logistic (A i) := by
  show A i * Ideal.div (Ideal.ofBits .f32 0x3F800000#32) (Ideal.ofBits .f32 0x3F800000#32 + Ideal.exp (-(A i))) = _
  rw [ofBits_one_f32]
  rfl

/-- The composition is the gated perceptron of the input and the three matrices. -/
theorem core_eq (x : FVec Ideal S8192x4096 .f32) (W1 W2 : FVec Ideal S11008x4096 .f32) (W3 : FVec Ideal S4096x11008 .f32) :
    core x W1 W2 W3 = Cert.Mlp.mlp x W1 W2 W3 := by
  funext i
  obtain ⟨t, d, rfl⟩ : ∃ (t : Fin 8192) (d : Fin 4096), i = ix2 t d := ⟨i 0, i 1, eq_ix2 i⟩
  unfold core Cert.Mlp.mlp
  rw [Cert.Mlp.down_ix2]
  refine (dotGeneral_ix2 dot_S8192x11008_S11008x4096_S8192x4096_1_0_0_1_n_n_wf none _ _ t d).trans ?_
  refine Finset.sum_congr rfl fun j _ => ?_
  rw [transpose_ix2_apply, mulf_apply, act_apply, proj_apply, proj_apply, Cert.Mlp.hidden_ix2]
  rfl

/-! ## The run -/

-- the rebuilt matrices are compared only through their arguments
attribute [local irreducible] Cert.Mlp.dequant in
/-- From any memory with zero counters, every weakly fair execution of the reference terminates with its result buffer
    holding the gated perceptron of the input and the three weight matrices its codes and scales denote, and with the
    seven argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43)
          = Cert.Mlp.mlp (m ((c.tc : Thread nD τ).loc main_arg0))
              (Cert.Mlp.dequant (F := Ideal) shapeCasts_S11008x4096_S704512x64 bcast_S_S704512x64 bcast_S704512x64_S704512x64x1_0_1 gather_S16_S704512x64x1_S704512x64_n_0_n_n_0_2_1_wf bcast_S704512_S704512x1_0 bcast_S704512x1_S704512x64_0_1 shapeCasts_S704512x64_S11008x4096 (m ((c.tc : Thread nD τ).loc main_arg1)) (m ((c.tc : Thread nD τ).loc main_arg2)))
              (Cert.Mlp.dequant (F := Ideal) shapeCasts_S11008x4096_S704512x64 bcast_S_S704512x64 bcast_S704512x64_S704512x64x1_0_1 gather_S16_S704512x64x1_S704512x64_n_0_n_n_0_2_1_wf bcast_S704512_S704512x1_0 bcast_S704512x1_S704512x64_0_1 shapeCasts_S704512x64_S11008x4096 (m ((c.tc : Thread nD τ).loc main_arg3)) (m ((c.tc : Thread nD τ).loc main_arg4)))
              (Cert.Mlp.dequant (F := Ideal) shapeCasts_S4096x11008_S704512x64 bcast_S_S704512x64 bcast_S704512x64_S704512x64x1_0_1 gather_S16_S704512x64x1_S704512x64_n_0_n_n_0_2_1_wf bcast_S704512_S704512x1_0 bcast_S704512x1_S704512x64_0_1 shapeCasts_S704512x64_S4096x11008 (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c =>
      ⟨(h c main_v43).trans ((out_eq (launchContents m c)).trans (core_eq _ _ _ _)),
        (h c main_arg0).trans (arg0_eq (launchContents m c)),
        (h c main_arg1).trans (arg1_eq (launchContents m c)),
        (h c main_arg2).trans (arg2_eq (launchContents m c)),
        (h c main_arg3).trans (arg3_eq (launchContents m c)),
        (h c main_arg4).trans (arg4_eq (launchContents m c)),
        (h c main_arg5).trans (arg5_eq (launchContents m c)),
        (h c main_arg6).trans (arg6_eq (launchContents m c))⟩)
    (RefRun.run_main m ρ)

end Cert.ReferenceIdeal.RefValue

end
-- ==== Proof.lean ====
/-
  A gated two-layer perceptron with table-quantised weights, computed by two tiled kernels, against its plain
  definition: the two programs agree on the extended reals.

  Both programs first turn each weight matrix's four-bit codes and per-block scales into the matrix itself (a look-up
  in a table of sixteen levels times the block's scale), with the same operations; the kernel's program then narrows
  the float format of the input and of the weights, which changes nothing on the extended reals. With x the input
  and W₁, W₂, W₃ the weights, the reference forms a₁ = x·W₁ᵀ and a₂ = x·W₂ᵀ, gates h = (a₁ · 1/(1 + e^(−a₁))) · a₂
  and returns h·W₃ᵀ, each product a sum over the contracted coordinate. The kernel's first pallas_call computes h
  block by block (1024 tokens × 256 hidden units per grid point, the full contraction inside one block, the gate by
  the logistic function, which on the extended reals IS 1/(1 + e^(−a))) and its second computes h·W₃ᵀ block by block
  (1024 × 256 again). Entry by entry both are the same sums of the same products in the same order, so no algebraic
  law and no finiteness of the inputs is needed: the proof is a matter of reading each program's result array as the
  one function `Cert.Mlp.mlp` of the input and the dequantised weights.

  The three frame claims: each kernel program's by its generated frame, the reference's by its run with the result
  forgotten. The idealisation rewrote no operation, so there is nothing to preserve. The value claim: the kernel
  program's run with its result array read (Proof/KernelValue.lean, over the two regions' whole-array functions,
  the host line's entries and the bodies' arithmetic at an entry) beside the reference's run with its result read
  (Proof/RefValue.lean), from memories that agree on the arguments.
-/
import proofs.«132417_j3410204033240_2_alg».proof.Defs
import proofs.«132417_j3410204033240_2_alg».proof.Proof.Gen.Kernel
import proofs.«132417_j3410204033240_2_alg».proof.Proof.Gen.Kernel.Frame
import proofs.«132417_j3410204033240_2_alg».proof.Proof.Gen.KernelIdeal
import proofs.«132417_j3410204033240_2_alg».proof.Proof.Gen.KernelIdeal.Frame
import proofs.«132417_j3410204033240_2_alg».proof.Proof.Gen.ReferenceIdeal
import proofs.«132417_j3410204033240_2_alg».proof.Proof.Gen.Pre_finite_inputs
import proofs.«132417_j3410204033240_2_alg».proof.Proof.KernelValue
import proofs.«132417_j3410204033240_2_alg».proof.Proof.RefValue
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealised kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with what it says of the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefValue.run m ρ)

/-- From memories that agree on the seven arguments both programs end with the perceptron of the input and the
    dequantised weights in their result arrays: the same function of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
